-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S8192x1024 .f32) (main_arg1 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S_ : Shape := ⟨0, ![]⟩
abbrev S8192x4096 : Shape := ⟨2, ![8192, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192x4096, .f32⟩
  | .hbm, ⟨49, _⟩ => ⟨S8192x4096, .f32⟩
  | .hbm, ⟨50, _⟩ => ⟨S_, .f32⟩
  | .hbm, ⟨51, _⟩ => ⟨S8192x4096, .f32⟩
  | .hbm, ⟨52, _⟩ => ⟨S8192x4096, .f32⟩
  | .hbm, ⟨53, _⟩ => ⟨S_, .f32⟩
  | .hbm, ⟨54, _⟩ => ⟨S8192x4096, .f32⟩
  | .hbm, ⟨55, _⟩ => ⟨S8192x4096, .f32⟩
  | .hbm, ⟨56, _⟩ => ⟨S8192x4096, .f32⟩
  | .hbm, ⟨57, _⟩ => ⟨S_, .f32⟩
  | .hbm, ⟨58, _⟩ => ⟨S8192x4096, .f32⟩
  | .hbm, ⟨59, _⟩ => ⟨S8192x4096, .f32⟩
  | .hbm, ⟨60, _⟩ => ⟨S_, .f32⟩
  | .hbm, ⟨61, _⟩ => ⟨S8192x4096, .f32⟩
  | .hbm, ⟨62, _⟩ => ⟨S8192x4096, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S8192x4096, .f32⟩
  | .hbm, ⟨67, _⟩ => ⟨S8192x4096, .f32⟩
  | .hbm, ⟨68, _⟩ => ⟨S_, .f32⟩
  | .hbm, ⟨69, _⟩ => ⟨S8192x4096, .f32⟩
  | .hbm, ⟨70, _⟩ => ⟨S8192x4096, .f32⟩
  | .hbm, ⟨71, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call1_v0 : Ref sig .tc := ⟨.hbm, 5, rfl⟩
abbrev main_call1_v1 : Ref sig .tc := ⟨.hbm, 6, rfl⟩
abbrev main_call1_v2 : Ref sig .tc := ⟨.hbm, 7, rfl⟩
abbrev main_call1_v3 : Ref sig .tc := ⟨.hbm, 8, rfl⟩
abbrev main_call1_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_call2_v0 : Ref sig .tc := ⟨.hbm, 17, rfl⟩
abbrev main_call2_v1 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call3_v0 : Ref sig .tc := ⟨.hbm, 25, rfl⟩
abbrev main_call3_v1 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_call4_v0 : Ref sig .tc := ⟨.hbm, 30, rfl⟩
abbrev main_call4_v1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_6 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_7 : Ref sig .tc := ⟨.hbm, 39, rfl⟩
abbrev main_v18 : Ref sig .tc := ⟨.hbm, 40, rfl⟩
abbrev main_v19 : Ref sig .tc := ⟨.hbm, 41, rfl⟩
abbrev main_cst_8 : Ref sig .tc := ⟨.hbm, 42, rfl⟩
abbrev main_v20 : Ref sig .tc := ⟨.hbm, 43, rfl⟩
abbrev main_v21 : Ref sig .tc := ⟨.hbm, 44, rfl⟩
abbrev main_cst_9 : Ref sig .tc := ⟨.hbm, 45, rfl⟩
abbrev main_cst_10 : Ref sig .tc := ⟨.hbm, 46, rfl⟩
abbrev main_call5_v0 : Ref sig .tc := ⟨.hbm, 47, rfl⟩
abbrev main_call5_v1 : Ref sig .tc := ⟨.hbm, 48, rfl⟩
abbrev main_call5_v2 : Ref sig .tc := ⟨.hbm, 49, rfl⟩
abbrev main_call5_v3 : Ref sig .tc := ⟨.hbm, 50, rfl⟩
abbrev main_call5_v4 : Ref sig .tc := ⟨.hbm, 51, rfl⟩
abbrev main_v22 : Ref sig .tc := ⟨.hbm, 52, rfl⟩
abbrev main_cst_11 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_12 : Ref sig .tc := ⟨.hbm, 57, rfl⟩
abbrev main_v26 : Ref sig .tc := ⟨.hbm, 58, rfl⟩
abbrev main_v27 : Ref sig .tc := ⟨.hbm, 59, rfl⟩
abbrev main_cst_13 : Ref sig .tc := ⟨.hbm, 60, rfl⟩
abbrev main_v28 : Ref sig .tc := ⟨.hbm, 61, rfl⟩
abbrev main_v29 : Ref sig .tc := ⟨.hbm, 62, rfl⟩
abbrev main_cst_14 : Ref sig .tc := ⟨.hbm, 63, rfl⟩
abbrev main_cst_15 : Ref sig .tc := ⟨.hbm, 64, rfl⟩
abbrev main_call6_v0 : Ref sig .tc := ⟨.hbm, 65, rfl⟩
abbrev main_call6_v1 : Ref sig .tc := ⟨.hbm, 66, rfl⟩
abbrev main_call6_v2 : Ref sig .tc := ⟨.hbm, 67, rfl⟩
abbrev main_call6_v3 : Ref sig .tc := ⟨.hbm, 68, rfl⟩
abbrev main_call6_v4 : Ref sig .tc := ⟨.hbm, 69, rfl⟩
abbrev main_v30 : Ref sig .tc := ⟨.hbm, 70, rfl⟩
abbrev main_v31 : Ref sig .tc := ⟨.hbm, 71, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  bcast_S_S8192x1024 : S_.BroadcastsInDim S8192x1024 (![] : Fin 0 → Fin S8192x1024.rank)
  bcast_S_S8192x4096 : S_.BroadcastsInDim S8192x4096 (![] : Fin 0 → Fin S8192x4096.rank)
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.Spec.lean ====
/-
  What both programs compute, as one function of the two argument arrays over the extended reals.

  An input voltage x drives the current  drive x = 2.5 · max(0, x − 0.2)².  A weight w is rounded to the
  nearest integer (ties to even) and clamped to [−8, 7]; its positive part  wpos w = max(0, q w)  and the
  positive part of its negation  wneg w = max(0, −q w)  are two conductances.  Row r of x against row c of w
  gives two accumulated currents  Σₖ drive x(r,k) · wpos w(c,k)  and  Σₖ drive x(r,k) · wneg w(c,k); each goes
  through the saturating gate  gate s = min(1.2, max(0, 1.2 · (1 − exp(−0.05 · s)))), and the entry (r, c) of
  the result is the difference of the two gated values.

  Every decimal literal is kept as the f32 word both programs print for it, so no literal is ever evaluated:
  the same word stands on both sides.  Only the zero word is read (it is the real 0).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The f32 word of +0.0. -/
abbrev zeroW : EReal := Ideal.ofBits .f32 0x00000000#32

/-- The drive current of one input: 2.5 · max(0, x − 0.2)². -/
def drive (x : EReal) : EReal :=
  Ideal.ofBits .f32 0x40200000#32 *
    (max zeroW (x - Ideal.ofBits .f32 0x3E4CCCCD#32) * max zeroW (x - Ideal.ofBits .f32 0x3E4CCCCD#32))

/-- A weight rounded to the nearest integer, ties to even, then clamped to [−8, 7]. -/
def quant (w : EReal) : EReal :=
  min (Ideal.ofBits .f32 0x40E00000#32) (max (Ideal.ofBits .f32 0xC1000000#32) (Ideal.liftRound Ideal.roundHalfEven w))

/-- The positive part of the quantized weight. -/
def wpos (w : EReal) : EReal := max zeroW (quant w)

/-- The positive part of the negated quantized weight, the negation written as a difference from zero. -/
def wneg (w : EReal) : EReal := max zeroW (zeroW - quant w)

/-- The saturating gate: min(1.2, max(0, 1.2 · (1 − exp(−0.05 · s)))). -/
def gate (s : EReal) : EReal :=
  min (Ideal.ofBits .f32 0x3F99999A#32)
    (max zeroW (Ideal.ofBits .f32 0x3F99999A#32 *
      (Ideal.ofBits .f32 0x3F800000#32 - Ideal.exp (Ideal.ofBits .f32 0xBD4CCCCD#32 * s))))

/-- Entry (r, c) of the result: the gated positive current minus the gated negative current, each a sum over
    the 1024 shared columns of row r of x and row c of w. -/
def entry (x : (⟨2, ![8192, 1024]⟩ : Shape).Idx → EReal) (w : (⟨2, ![4096, 1024]⟩ : Shape).Idx → EReal)
    (r : Fin 8192) (c : Fin 4096) : EReal :=
  gate (∑ k : Fin 1024, drive (x (ix2 r k)) * wpos (w (ix2 c k)))
    - gate (∑ k : Fin 1024, drive (x (ix2 r k)) * wneg (w (ix2 c k)))

/-- The whole result array, index by index. -/
def result (x : (⟨2, ![8192, 1024]⟩ : Shape).Idx → EReal) (w : (⟨2, ![4096, 1024]⟩ : Shape).Idx → EReal) :
    (⟨2, ![8192, 4096]⟩ : Shape).Idx → EReal :=
  fun i => entry x w ⟨(i 0).val, idx2_lt0 i⟩ ⟨(i 1).val, idx2_lt1 i⟩

/-! ## The two scalar laws between the programs' spellings -/

/-- A finite weight minus itself is zero, so adding that difference to the quantized weight changes nothing.
    (At an infinite weight the difference is −∞ and the sum would not be the quantized weight: this is where
    finiteness of the weights is used.) -/
theorem quant_add_self_sub (w : EReal) (ht : w ≠ ⊤) (hb : w ≠ ⊥) : quant w + (w - w) = quant w := by
  rw [EReal.sub_self ht hb, add_zero]

/-- The negation of a value is its difference from the zero word. -/
theorem neg_eq_zeroW_sub (a : EReal) : -a = zeroW - a := by
  show -a = Ideal.ofBits .f32 0x00000000#32 - a
  rw [Ideal.ofBits_zero_f32, zero_sub]

end Cert.Spec

end
-- ==== Proof.LibMatmulRowsByRows.lean ====
/-
  A matrix product that contracts the LAST axis of both operands ("nk,mk→nm": rows against rows), over the
  extended reals, for any extents.

  For A of shape [N, K] and B of shape [M, K] and the dimension numbers contracting [1] × [1], free axes [0] and [0],
  no batch axis, the product's entry (n, m) is  Σₖ A(n, k) · B(m, k).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  Why a proof is needed at all: the contraction is indexed by the one-axis contraction shape, and each operand's
  index at (output entry, contraction index) is computed from the lists by position; here the positions are read
  once, symbolically in N, K, M, and the sum is re-indexed by the column k : Fin K.
-/
import Idealize.ShloMosaic.PureOps.Ideal
import Idealize.ShloMosaic.PureOps.Ideal.Laws
import Idealize.ShloMosaic.Lib.ValueIdx

noncomputable section

namespace Cert.RowsByRows

open Idealize.ShloMosaic Idealize.ShloMosaic.ValueIdx

variable {N K M : Nat}

/-- The dimension numbers of "nk,mk→nm": both operands contracted on axis 1, free on axis 0, no batch axis. -/
structure Is (d : DotDims ⟨2, ![N, K]⟩ ⟨2, ![M, K]⟩ ⟨2, ![N, M]⟩) : Prop where
  lc : d.lhsContracting = [1]
  rc : d.rhsContracting = [1]
  ln : d.lhsNonContracting = [0]
  rn : d.rhsNonContracting = [0]
  lb : d.lhsBatch = []
  rb : d.rhsBatch = []

/-- The side condition a record with these lists carries. -/
abbrev WFt (N K M : Nat) : Prop := DotDims.WF (⟨2, ![N, K]⟩ : Shape) ⟨2, ![M, K]⟩ ⟨2, ![N, M]⟩ [1] [1] [0] [0] [] []

/-- The record with these lists, over a given proof of its side condition. -/
abbrev dims (wf : WFt N K M) : DotDims ⟨2, ![N, K]⟩ ⟨2, ![M, K]⟩ ⟨2, ![N, M]⟩ := ⟨[1], [1], [0], [0], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row at output entry i is i's COLUMN. -/
theorem rhs_row (wf : WFt N K M) (i : (⟨2, ![N, M]⟩ : Shape).Idx) (k : (dims wf).contr.Idx) :
    ((dims wf).rhsIdx i k 0).val = (i 1).val := by
  unfold DotDims.rhsIdx
  rw [dif_neg (show ¬(0 : Fin (⟨2, ![M, K]⟩ : Shape).rank) ∈ (dims wf).rhsBatch from List.not_mem_nil),
    dif_pos (show (0 : Fin (⟨2, ![M, K]⟩ : Shape).rank) ∈ (dims wf).rhsNonContracting from List.mem_singleton.2 rfl)]
  rfl

/-- The right operand's column is the contraction index. -/
theorem rhs_col (wf : WFt N K M) (i : (⟨2, ![N, M]⟩ : Shape).Idx) (k : (dims wf).contr.Idx) :
    ((dims wf).rhsIdx i k 1).val = (k ⟨0, Nat.one_pos⟩).val :=
  (dims wf).rhsIdx_val_of_single rfl i k

/-- The contraction at entry (n, c), re-indexed by the shared column, for the record spelt with the lists. -/
theorem sum_dims (wf : WFt N K M) {φ₁ φ₂ : FTy}
    (A : FVec Ideal ⟨2, ![N, K]⟩ φ₁) (B : FVec Ideal ⟨2, ![M, K]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 c k) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 c k :=
    funext fun a => Fin.ext (by
      match a with
      | ⟨0, _⟩ => exact rhs_row wf _ _
      | ⟨1, _⟩ => exact (rhs_col wf _ _).trans hk)
  rw [el, er]

/-- The same for ANY record that has the lists: it is the record spelt with them. -/
theorem sum_apply (d : DotDims ⟨2, ![N, K]⟩ ⟨2, ![M, K]⟩ ⟨2, ![N, M]⟩) (h : Is d) {φ₁ φ₂ : FTy}
    (A : FVec Ideal ⟨2, ![N, K]⟩ φ₁) (B : FVec Ideal ⟨2, ![M, K]⟩ φ₂) (n : Fin N) (c : Fin M) :
    ∑ k : d.contr.Idx, A (d.lhsIdx (ix2 n c) k) * B (d.rhsIdx (ix2 n c) k) = ∑ k : Fin K, A (ix2 n k) * B (ix2 c k) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(c, k). -/
theorem matmul_zero_apply (d : DotDims ⟨2, ![N, K]⟩ ⟨2, ![M, K]⟩ ⟨2, ![N, M]⟩) (h : Is d) (prec : Option ContractPrecision)
    {φ₁ φ₂ : FTy} (A : FVec Ideal ⟨2, ![N, K]⟩ φ₁) (B : FVec Ideal ⟨2, ![M, K]⟩ φ₂) (n : Fin N) (c : Fin M) :
    matmul d prec A B (constant (F := Ideal) ⟨2, ![N, M]⟩ .f32 0x00000000#32) (ix2 n c)
      = ∑ k : Fin K, A (ix2 n k) * B (ix2 c k) := by
  simp only [matmul]
  rw [Ideal.matmul_constant_zero_apply]
  exact sum_apply d h A B n c

/-- The HOST's general dot product, at entry (n, c): the same sum. -/
theorem dotGeneral_apply (d : DotDims ⟨2, ![N, K]⟩ ⟨2, ![M, K]⟩ ⟨2, ![N, M]⟩) (h : Is d) (prec : Option ContractPrecision)
    {φ₁ φ₂ : FTy} (A : FVec Ideal ⟨2, ![N, K]⟩ φ₁) (B : FVec Ideal ⟨2, ![M, K]⟩ φ₂) (n : Fin N) (c : Fin M) :
    Host.dotGeneral d prec A B (ix2 n c) = ∑ k : Fin K, A (ix2 n k) * B (ix2 c k) := by
  simp only [Host.dotGeneral]
  rw [Ideal.dotGeneral_apply]
  exact sum_apply d h A B n c

end Cert.RowsByRows

end
-- ==== Proof.BlockEntry.lean ====
/-
  One grid point's work, read at one entry of its output block.

  At a grid point the body holds a block X of 1024 rows of x and a block W of 512 rows of w, all 1024 columns of
  each. Its matrix product contracts the column axis of both operands, so entry (p, q) of a product is the sum
  over the shared column k of (left operand at (p, k)) · (right operand at (q, k)). Everything else in the body is
  pointwise. Hence entry (p, q) of what the body stores is
      gate (Σₖ drive X(p,k) · wpos W(q,k)) − gate (Σₖ drive X(p,k) · wneg W(q,k)).
  A change of float format is the identity on the extended reals, so the bf16 casts of the operands vanish.
-/
import proofs.«116920_j7730941133085_1_alg».proof.Proof.Gen.KernelIdeal.Frame
import proofs.«116920_j7730941133085_1_alg».proof.Proof.Spec
import proofs.«116920_j7730941133085_1_alg».proof.Proof.LibMatmulRowsByRows
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.Spec

/-- The body's matrix product into the zero accumulator, at entry (p, q): the sum over the shared column k of
    A(p, k) · B(q, k). Its dimension numbers contract the column axis of both operands. -/
theorem product_apply (A : FVec Ideal S1024x1024 .bf16) (B : FVec Ideal S512x1024 .bf16) (p : Fin 1024) (q : Fin 512) :
    matmul dot_S1024x1024_S512x1024_S1024x512_1_1_0_0_n_n none A B (constant (F := Ideal) S1024x512 .f32 0x00000000#32) (ix2 p q)
      = ∑ k : Fin 1024, A (ix2 p k) * B (ix2 q k) :=
  Cert.RowsByRows.matmul_zero_apply dot_S1024x1024_S512x1024_S1024x512_1_1_0_0_n_n ⟨rfl, rfl, rfl, rfl, rfl, rfl⟩ none A B p q

/-- The drive currents of a block of x, entry by entry. -/
theorem drive_apply (X : Vec Ideal S1024x1024 .f32) (i : S1024x1024.Idx) : k0_pay3 (F := Ideal) X i = drive (X i) := rfl

/-- The quantized weights of a block of w, entry by entry. -/
theorem quant_apply (W : Vec Ideal S512x1024 .f32) (i : S512x1024.Idx) : k0_pay2 (F := Ideal) W i = quant (W i) := rfl

/-- The gated positive current at entry (p, q) of the block. -/
theorem gatedPos_apply (X : Vec Ideal S1024x1024 .f32) (W : Vec Ideal S512x1024 .f32) (p : Fin 1024) (q : Fin 512) :
    k0_pay4 (F := Ideal) X W (ix2 p q) = gate (∑ k : Fin 1024, drive (X (ix2 p k)) * wpos (W (ix2 q k))) := by
  unfold k0_pay4
  exact congrArg gate (product_apply _ _ p q)

/-- The negative current at entry (p, q) of the block, already scaled by −0.05: the argument of the second
    gate's exponential. -/
theorem scaledNeg_apply (X : Vec Ideal S1024x1024 .f32) (W : Vec Ideal S512x1024 .f32) (p : Fin 1024) (q : Fin 512) :
    k0_pay5 (F := Ideal) X W (ix2 p q)
      = Ideal.ofBits .f32 0xBD4CCCCD#32 * ∑ k : Fin 1024, drive (X (ix2 p k)) * wneg (W (ix2 q k)) := by
  unfold k0_pay5
  exact congrArg (Ideal.ofBits .f32 0xBD4CCCCD#32 * ·) (product_apply _ _ p q)

/-- The gate applied to an already scaled current: min(1.2, max(0, 1.2 · (1 − exp u))). -/
def gate' (u : EReal) : EReal :=
  min (Ideal.ofBits .f32 0x3F99999A#32)
    (max zeroW (Ideal.ofBits .f32 0x3F99999A#32 * (Ideal.ofBits .f32 0x3F800000#32 - Ideal.exp u)))

/-- What the body stores, at entry (p, q) of the block: the difference of the two gated currents. -/
theorem stored_apply (X : Vec Ideal S1024x1024 .f32) (W : Vec Ideal S512x1024 .f32) (p : Fin 1024) (q : Fin 512) :
    k0_pay1 (F := Ideal) (k0_pay4 X W) (k0_pay5 X W) (ix2 p q)
      = gate (∑ k : Fin 1024, drive (X (ix2 p k)) * wpos (W (ix2 q k)))
        - gate (∑ k : Fin 1024, drive (X (ix2 p k)) * wneg (W (ix2 q k))) := by
  show k0_pay4 (F := Ideal) X W (ix2 p q)
      - gate' (k0_pay5 (F := Ideal) X W (ix2 p q)) = _
  rw [gatedPos_apply, scaledNeg_apply]
  rfl

end Cert.KernelIdeal.Block

end
-- ==== Proof.KernelArray.lean ====
/-
  From the 64 blocks to the whole result array.

  The grid is 8 × 8. At point (b, o) the body reads rows 1024·b … 1024·b + 1023 of x and rows 512·o … 512·o + 511 of
  w (every column of each), and writes the block of the result whose rows are those of the x block and whose
  columns are the ROWS of the w block: entry (p, q) of the block is entry (1024·b + p, 512·o + q) of the array. The
  body's stored value at (p, q) depends only on row p of the x block and row q of the w block, which are row
  1024·b + p of x and row 512·o + q of w: so each block is the restriction of ONE function of the two arrays, the
  specification. The 64 blocks tile the 8192 × 4096 array (the block holding (r, c) is point (r / 1024, c / 512)), so
  the array ends holding the specification everywhere.
-/
import proofs.«116920_j7730941133085_1_alg».proof.Proof.Gen.KernelIdeal.Value
import proofs.«116920_j7730941133085_1_alg».proof.Proof.BlockEntry

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-- The body's rectangles all start at the origin. -/
theorem origin_zero : (![0, 0] : Fin 2 → Nat) = fun _ => 0 := funext fun a => by fin_cases a <;> rfl

/-- ONE POINT, over variables: if the x block X is rows 1024·b + · of x and the w block W is rows 512·o + · of w
    (columns unchanged), then the body's stored value at block entry j is the specification at the array entry i
    whose row is 1024·b + (row of j) and whose column is 512·o + (column of j). -/
theorem point_entry (X : Vec Ideal S1024x1024 .f32) (W : Vec Ideal S512x1024 .f32)
    (x : (⟨2, ![8192, 1024]⟩ : Shape).Idx → EReal) (w : (⟨2, ![4096, 1024]⟩ : Shape).Idx → EReal)
    (eX : S1024x1024.Idx → (⟨2, ![8192, 1024]⟩ : Shape).Idx) (eW : S512x1024.Idx → (⟨2, ![4096, 1024]⟩ : Shape).Idx)
    (b o : Nat)
    (hX : ∀ y, X y = x (eX y)) (hW : ∀ y, W y = w (eW y))
    (hX0 : ∀ y, (eX y 0).val = b * 1024 + (y 0).val) (hX1 : ∀ y, (eX y 1).val = (y 1).val)
    (hW0 : ∀ y, (eW y 0).val = o * 512 + (y 0).val) (hW1 : ∀ y, (eW y 1).val = (y 1).val)
    (j : S1024x512.Idx) (i : (⟨2, ![8192, 4096]⟩ : Shape).Idx)
    (hi0 : (i 0).val = b * 1024 + (j 0).val) (hi1 : (i 1).val = o * 512 + (j 1).val) :
    k0_pay1 (F := Ideal) (k0_pay4 X W) (k0_pay5 X W) j = result x w i := by
  obtain ⟨p, q, rfl⟩ : ∃ (p : Fin 1024) (q : Fin 512), j = ix2 p q := ⟨j 0, j 1, eq_ix2 j⟩
  rw [Block.stored_apply]
  have eL : ∀ k : Fin 1024, X (ix2 p k) = x (ix2 (⟨(i 0).val, idx2_lt0 i⟩ : Fin 8192) k) := fun k => by
    rw [hX]
    refine congrArg x (funext fun a => Fin.ext ?_)
    match a with
    | ⟨0, _⟩ => exact (hX0 _).trans hi0.symm
    | ⟨1, _⟩ => exact hX1 _
  have eR : ∀ k : Fin 1024, W (ix2 q k) = w (ix2 (⟨(i 1).val, idx2_lt1 i⟩ : Fin 4096) k) := fun k => by
    rw [hW]
    refine congrArg w (funext fun a => Fin.ext ?_)
    match a with
    | ⟨0, _⟩ => exact (hW0 _).trans hi1.symm
    | ⟨1, _⟩ => exact hW1 _
  simp only [eL, eR]
  rfl

/-- The printed index maps, decided over the 64 points: the x window's block row is the output's block row,
    the w window's block row is the output's block COLUMN, both input windows take every column, and the
    output's block indices are at most 7. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every one of the 8 × 8 blocks is some point's. -/
theorem idx_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- WHAT POINT t WRITES BACK is block t of the specification of the two argument arrays. -/
theorem flushed_eq (c : Dev nD) (t : Fin cfg0.N) :
    (dats m 0 c).flushed 2 t
      = ((cfg0.win 2).blk t).view.read (Elt Ideal) (result (V m c main_arg0) (V m c main_arg1)) := by
  rw [Value.flushed2]
  unfold out0_2
  rw [View.canon_unit_zero origin_zero]
  simp only [View.ld_unit_zero (S := S1024x1024) origin_zero, View.ld_unit_zero (S := S512x1024) origin_zero]
  obtain ⟨e0, e1, e2, e3, e4, e5⟩ := idx_facts t
  funext j
  show k0_pay1 (F := Ideal) (k0_pay4 (iblk m c 0 t) (iblk m c 1 t)) (k0_pay5 (iblk m c 0 t) (iblk m c 1 t)) j
      = result (V m c main_arg0) (V m c main_arg1) (((cfg0.win 2).blk t).view.emb j)
  refine point_entry (iblk m c 0 t) (iblk m c 1 t) (V m c main_arg0) (V m c main_arg1)
    (((cfg0.win 0).blk t).view.emb) (((cfg0.win 1).blk t).view.emb)
    (win0_2.index t (0 : Fin 2)) (win0_2.index t (1 : Fin 2)) (fun _ => rfl) (fun _ => rfl) ?_ ?_ ?_ ?_ j _ ?_ ?_
  · intro y
    show win0_0.index t (0 : Fin 2) * 1024 + 1 * (y 0).val = win0_2.index t (0 : Fin 2) * 1024 + (y 0).val
    omega
  · intro y
    show win0_0.index t (1 : Fin 2) * 1024 + 1 * (y 1).val = (y 1).val
    omega
  · intro y
    show win0_1.index t (0 : Fin 2) * 512 + 1 * (y 0).val = win0_2.index t (1 : Fin 2) * 512 + (y 0).val
    omega
  · intro y
    show win0_1.index t (1 : Fin 2) * 1024 + 1 * (y 1).val = (y 1).val
    omega
  · show win0_2.index t (0 : Fin 2) * 1024 + 1 * (j 0).val = win0_2.index t (0 : Fin 2) * 1024 + (j 0).val
    omega
  · show win0_2.index t (1 : Fin 2) * 512 + 1 * (j 1).val = win0_2.index t (1 : Fin 2) * 512 + (j 1).val
    omega

/-- An index of the array is in point t's block iff each coordinate is in the block's range on its axis. -/
theorem mem_blk (t : Fin cfg0.N) (i : S8192x4096.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v0).slice (win0_2.rect t)).set ↔ _
  rw [View.set_slice_whole, Rect.mem_set_unit]
  exact Iff.rfl

/-- THE BLOCKS TILE THE ARRAY: entry (r, c) is in the block of the point whose output block is (r / 1024, c / 512). -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-- THE ARRAY after the run is the specification of the two argument arrays as launched. -/
theorem final (c : Dev nD) :
    (dats m 0 c).arrAt 2 cfg0.N
      = result (m ((c : Thread nD τ).loc main_arg0)) (m ((c : Thread nD τ).loc main_arg1)) :=
  (dats m 0 c).arrAt_eq_of_cover 2 (result (V m c main_arg0) (V m c main_arg1)) (fun t _ => flushed_eq m c t) cover

/-- The kernel's run, with the result array at the specification and the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefEntry.lean ====
/-
  The reference program read at one entry of its result.

  The reference computes the same drive currents over the whole of x; rounds and clamps the whole of w and then
  adds w − w to it (the trace a gradient trick leaves in a forward pass); takes the positive part of that sum and
  of its negation; contracts the column axis of the currents with each of the two in one product over the whole
  arrays; and gates the two products. For a FINITE weight w − w is zero and the sum is the quantized weight, so
  entry (r, c) is the specification's. The negation is the specification's difference from zero.
-/
import proofs.«116920_j7730941133085_1_alg».proof.Proof.Gen.ReferenceIdeal.Read
import proofs.«116920_j7730941133085_1_alg».proof.Proof.Spec

noncomputable section

namespace Cert.ReferenceIdeal.Entry

open Cert.ReferenceIdeal Cert.ReferenceIdeal.Read Idealize.ShloMosaic Idealize.ShloMosaic.ValueIdx Cert.Spec

/-! ## The constants, each broadcast from a scalar -/

/-- A scalar broadcast to every index: the lower clamp −8 over the weights. -/
theorem splat_call1_v1 (j : S4096x1024.Idx) : val_main_call1_v1 (F := Ideal) j = Ideal.ofBits .f32 0xC1000000#32 := by
  rw [val_main_call1_v1_apply]; rfl
/-- A scalar broadcast to every index: the upper clamp 7 over the weights. -/
theorem splat_call1_v4 (j : S4096x1024.Idx) : val_main_call1_v4 (F := Ideal) j = Ideal.ofBits .f32 0x40E00000#32 := by
  rw [val_main_call1_v4_apply]; rfl
/-- A scalar broadcast to every index: the zero the positive part compares with. -/
theorem splat_call3_v1 (j : S4096x1024.Idx) : val_main_call3_v1 (F := Ideal) j = Ideal.ofBits .f32 0x00000000#32 := by
  rw [val_main_call3_v1_apply]; rfl
/-- A scalar broadcast to every index: the zero the negated part compares with. -/
theorem splat_call4_v1 (j : S4096x1024.Idx) : val_main_call4_v1 (F := Ideal) j = Ideal.ofBits .f32 0x00000000#32 := by
  rw [val_main_call4_v1_apply]; rfl
/-- A scalar broadcast to every index: the threshold 0.2 over the inputs. -/
theorem splat_v4 (j : S8192x1024.Idx) : val_main_v4 (F := Ideal) j = Ideal.ofBits .f32 0x3E4CCCCD#32 := by
  rw [val_main_v4_apply]; rfl
/-- A scalar broadcast to every index: the zero the thresholded input compares with. -/
theorem splat_call2_v1 (j : S8192x1024.Idx) : val_main_call2_v1 (F := Ideal) j = Ideal.ofBits .f32 0x00000000#32 := by
  rw [val_main_call2_v1_apply]; rfl
/-- A scalar broadcast to every index: the factor 2.5 over the inputs. -/
theorem splat_v8 (j : S8192x1024.Idx) : val_main_v8 (F := Ideal) j = Ideal.ofBits .f32 0x40200000#32 := by
  rw [val_main_v8_apply]; rfl
/-- A scalar broadcast to every index: the rate −0.05 of the first gate. -/
theorem splat_v15 (j : S8192x4096.Idx) : val_main_v15 (F := Ideal) j = Ideal.ofBits .f32 0xBD4CCCCD#32 := by
  rw [val_main_v15_apply]; rfl
/-- A scalar broadcast to every index: the one of the first gate. -/
theorem splat_v18 (j : S8192x4096.Idx) : val_main_v18 (F := Ideal) j = Ideal.ofBits .f32 0x3F800000#32 := by
  rw [val_main_v18_apply]; rfl
/-- A scalar broadcast to every index: the amplitude 1.2 of the first gate. -/
theorem splat_v20 (j : S8192x4096.Idx) : val_main_v20 (F := Ideal) j = Ideal.ofBits .f32 0x3F99999A#32 := by
  rw [val_main_v20_apply]; rfl
/-- A scalar broadcast to every index: the first gate's lower clamp 0. -/
theorem splat_call5_v1 (j : S8192x4096.Idx) : val_main_call5_v1 (F := Ideal) j = Ideal.ofBits .f32 0x00000000#32 := by
  rw [val_main_call5_v1_apply]; rfl
/-- A scalar broadcast to every index: the first gate's upper clamp 1.2. -/
theorem splat_call5_v4 (j : S8192x4096.Idx) : val_main_call5_v4 (F := Ideal) j = Ideal.ofBits .f32 0x3F99999A#32 := by
  rw [val_main_call5_v4_apply]; rfl
/-- A scalar broadcast to every index: the rate −0.05 of the second gate. -/
theorem splat_v23 (j : S8192x4096.Idx) : val_main_v23 (F := Ideal) j = Ideal.ofBits .f32 0xBD4CCCCD#32 := by
  rw [val_main_v23_apply]; rfl
/-- A scalar broadcast to every index: the one of the second gate. -/
theorem splat_v26 (j : S8192x4096.Idx) : val_main_v26 (F := Ideal) j = Ideal.ofBits .f32 0x3F800000#32 := by
  rw [val_main_v26_apply]; rfl
/-- A scalar broadcast to every index: the amplitude 1.2 of the second gate. -/
theorem splat_v28 (j : S8192x4096.Idx) : val_main_v28 (F := Ideal) j = Ideal.ofBits .f32 0x3F99999A#32 := by
  rw [val_main_v28_apply]; rfl
/-- A scalar broadcast to every index: the second gate's lower clamp 0. -/
theorem splat_call6_v1 (j : S8192x4096.Idx) : val_main_call6_v1 (F := Ideal) j = Ideal.ofBits .f32 0x00000000#32 := by
  rw [val_main_call6_v1_apply]; rfl
/-- A scalar broadcast to every index: the second gate's upper clamp 1.2. -/
theorem splat_call6_v4 (j : S8192x4096.Idx) : val_main_call6_v4 (F := Ideal) j = Ideal.ofBits .f32 0x3F99999A#32 := by
  rw [val_main_call6_v4_apply]; rfl

/-! ## The pointwise stages -/

/-- The drive currents over the whole of x. -/
theorem drive_apply (x0 : (⟨S8192x1024, .f32⟩ : BufTy).Contents (Elt Ideal)) (j : S8192x1024.Idx) :
    val_main_v9 (F := Ideal) x0 j = drive (x0 j) := by
  show val_main_v8 (F := Ideal) j * (max (val_main_call2_v1 (F := Ideal) j) (x0 j - val_main_v4 (F := Ideal) j)
      * max (val_main_call2_v1 (F := Ideal) j) (x0 j - val_main_v4 (F := Ideal) j)) = _
  rw [splat_v8, splat_call2_v1, splat_v4]
  rfl

/-- The rounded and clamped weight plus w − w is the quantized weight, for a finite w. -/
theorem quant_apply (x1 : (⟨S4096x1024, .f32⟩ : BufTy).Contents (Elt Ideal)) (j : S4096x1024.Idx)
    (hj : x1 j ≠ ⊤ ∧ x1 j ≠ ⊥) : val_main_v3 (F := Ideal) x1 j = quant (x1 j) := by
  show min (val_main_call1_v4 (F := Ideal) j) (max (val_main_call1_v1 (F := Ideal) j)
      (Ideal.liftRound Ideal.roundHalfEven (x1 j))) + (x1 j - x1 j) = _
  rw [splat_call1_v4, splat_call1_v1]
  exact quant_add_self_sub _ hj.1 hj.2

/-- Its positive part. -/
theorem wpos_apply (x1 : (⟨S4096x1024, .f32⟩ : BufTy).Contents (Elt Ideal)) (j : S4096x1024.Idx)
    (hj : x1 j ≠ ⊤ ∧ x1 j ≠ ⊥) : val_main_v10 (F := Ideal) x1 j = wpos (x1 j) := by
  show max (val_main_call3_v1 (F := Ideal) j) (val_main_v3 (F := Ideal) x1 j) = _
  rw [splat_call3_v1, quant_apply x1 j hj]
  rfl

/-- The positive part of its negation: the negation is the difference from zero. -/
theorem wneg_apply (x1 : (⟨S4096x1024, .f32⟩ : BufTy).Contents (Elt Ideal)) (j : S4096x1024.Idx)
    (hj : x1 j ≠ ⊤ ∧ x1 j ≠ ⊥) : val_main_v12 (F := Ideal) x1 j = wneg (x1 j) := by
  show max (val_main_call4_v1 (F := Ideal) j) (-(val_main_v3 (F := Ideal) x1 j)) = _
  rw [splat_call4_v1, quant_apply x1 j hj, neg_eq_zeroW_sub]
  rfl

/-! ## The two products -/

/-- The left operand's index at output entry i and shared column k is (row of i, k); the right operand's is
    (column of i, k). -/
theorem lidx13_eq (i : S8192x4096.Idx) (k : Fin 1024) :
    lidx_main_v13 i k = ix2 (⟨(i 0).val, idx2_lt0 i⟩ : Fin 8192) k :=
  funext fun a => by match a with | ⟨0, _⟩ => rfl | ⟨1, _⟩ => rfl
theorem ridx13_eq (i : S8192x4096.Idx) (k : Fin 1024) :
    ridx_main_v13 i k = ix2 (⟨(i 1).val, idx2_lt1 i⟩ : Fin 4096) k :=
  funext fun a => by match a with | ⟨0, _⟩ => rfl | ⟨1, _⟩ => rfl
theorem lidx14_eq (i : S8192x4096.Idx) (k : Fin 1024) :
    lidx_main_v14 i k = ix2 (⟨(i 0).val, idx2_lt0 i⟩ : Fin 8192) k :=
  funext fun a => by match a with | ⟨0, _⟩ => rfl | ⟨1, _⟩ => rfl
theorem ridx14_eq (i : S8192x4096.Idx) (k : Fin 1024) :
    ridx_main_v14 i k = ix2 (⟨(i 1).val, idx2_lt1 i⟩ : Fin 4096) k :=
  funext fun a => by match a with | ⟨0, _⟩ => rfl | ⟨1, _⟩ => rfl

/-- The positive current at entry i: the sum over the shared column. -/
theorem posSum_apply (x0 : (⟨S8192x1024, .f32⟩ : BufTy).Contents (Elt Ideal)) (x1 : (⟨S4096x1024, .f32⟩ : BufTy).Contents (Elt Ideal))
    (hfin : ∀ j, x1 j ≠ ⊤ ∧ x1 j ≠ ⊥) (i : S8192x4096.Idx) :
    val_main_v13 (F := Ideal) x0 x1 i
      = ∑ k : Fin 1024, drive (x0 (ix2 (⟨(i 0).val, idx2_lt0 i⟩ : Fin 8192) k)) * wpos (x1 (ix2 (⟨(i 1).val, idx2_lt1 i⟩ : Fin 4096) k)) := by
  rw [val_main_v13_apply]
  refine Finset.sum_congr rfl fun k _ => ?_
  rw [drive_apply, wpos_apply x1 _ (hfin _), lidx13_eq, ridx13_eq]

/-- The negative current at entry i. -/
theorem negSum_apply (x0 : (⟨S8192x1024, .f32⟩ : BufTy).Contents (Elt Ideal)) (x1 : (⟨S4096x1024, .f32⟩ : BufTy).Contents (Elt Ideal))
    (hfin : ∀ j, x1 j ≠ ⊤ ∧ x1 j ≠ ⊥) (i : S8192x4096.Idx) :
    val_main_v14 (F := Ideal) x0 x1 i
      = ∑ k : Fin 1024, drive (x0 (ix2 (⟨(i 0).val, idx2_lt0 i⟩ : Fin 8192) k)) * wneg (x1 (ix2 (⟨(i 1).val, idx2_lt1 i⟩ : Fin 4096) k)) := by
  rw [val_main_v14_apply]
  refine Finset.sum_congr rfl fun k _ => ?_
  rw [drive_apply, wneg_apply x1 _ (hfin _), lidx14_eq, ridx14_eq]

/-! ## The gates, and the result -/

/-- The first gate, over the positive current. -/
theorem gatePos_apply (x0 : (⟨S8192x1024, .f32⟩ : BufTy).Contents (Elt Ideal)) (x1 : (⟨S4096x1024, .f32⟩ : BufTy).Contents (Elt Ideal))
    (i : S8192x4096.Idx) : val_main_v22 (F := Ideal) x0 x1 i = gate (val_main_v13 (F := Ideal) x0 x1 i) := by
  show min (val_main_call5_v4 (F := Ideal) i) (max (val_main_call5_v1 (F := Ideal) i)
      (val_main_v20 (F := Ideal) i * (val_main_v18 (F := Ideal) i
        - Ideal.exp (val_main_v15 (F := Ideal) i * val_main_v13 (F := Ideal) x0 x1 i)))) = _
  rw [splat_call5_v4, splat_call5_v1, splat_v20, splat_v18, splat_v15]
  rfl

/-- The second gate, over the negative current. -/
theorem gateNeg_apply (x0 : (⟨S8192x1024, .f32⟩ : BufTy).Contents (Elt Ideal)) (x1 : (⟨S4096x1024, .f32⟩ : BufTy).Contents (Elt Ideal))
    (i : S8192x4096.Idx) : val_main_v30 (F := Ideal) x0 x1 i = gate (val_main_v14 (F := Ideal) x0 x1 i) := by
  show min (val_main_call6_v4 (F := Ideal) i) (max (val_main_call6_v1 (F := Ideal) i)
      (val_main_v28 (F := Ideal) i * (val_main_v26 (F := Ideal) i
        - Ideal.exp (val_main_v23 (F := Ideal) i * val_main_v14 (F := Ideal) x0 x1 i)))) = _
  rw [splat_call6_v4, splat_call6_v1, splat_v28, splat_v26, splat_v23]
  rfl

/-- THE REFERENCE IS THE SPECIFICATION: over finite weights its result array is `Spec.result` of its arguments. -/
theorem ref_eq_result (x0 : (⟨S8192x1024, .f32⟩ : BufTy).Contents (Elt Ideal)) (x1 : (⟨S4096x1024, .f32⟩ : BufTy).Contents (Elt Ideal))
    (hfin : ∀ j, x1 j ≠ ⊤ ∧ x1 j ≠ ⊥) : val_main_v31 (F := Ideal) x0 x1 = result x0 x1 := by
  funext i
  show val_main_v22 (F := Ideal) x0 x1 i - val_main_v30 (F := Ideal) x0 x1 i = _
  rw [gatePos_apply, gateNeg_apply, posSum_apply x0 x1 hfin, negSum_apply x0 x1 hfin]
  rfl

end Cert.ReferenceIdeal.Entry

end
-- ==== Proof.FiniteWeights.lean ====
/-
  What the precondition gives: every weight is a real number.

  The precondition is the conjunction of two "all entries satisfy |·| < +∞", one per argument, each a reduction by
  "and" of a one-bit comparison. That the conjunction is 1 makes the second reduction 1, hence every comparison
  of a weight's absolute value max(w, −w) against the word of +∞ — which is the top of the extended reals — is 1;
  and an extended real whose absolute value is below the top is neither infinity. (Only the weights' finiteness
  is needed: the reference adds w − w, which is zero only for a finite w.)
-/
import proofs.«116920_j7730941133085_1_alg».proof.Pre_finite_inputs
import proofs.«116920_j7730941133085_1_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal
import Idealize.ShloMosaic.PureOps.Ideal.Laws

noncomputable section

namespace Cert.Pre_finite_inputs.Finite

open Cert.Pre_finite_inputs Idealize.ShloMosaic

/-- The scalar shape has one index. -/
instance : Subsingleton S_.Idx := ⟨fun a b => funext fun d => d.elim0⟩

/-- The f32 word of +∞ is the top of the extended reals. -/
theorem top_word : Ideal.ofBits .f32 0x7F800000#32 = ⊤ := by simp [Ideal.ofBits, Ideal.ieee]

/-- An extended real whose absolute value max(a, −a) compares below the top is neither infinity. -/
theorem real_of_abs_lt_top (a : EReal) (h : Ideal.cmp .olt (max a (-a)) ⊤ = 1#1) : a ≠ ⊤ ∧ a ≠ ⊥ := by
  have hlt : max a (-a) < ⊤ := by
    by_contra hn
    have h0 : Ideal.cmp .olt (max a (-a)) ⊤ = 0#1 := by simp [Ideal.cmp, hn]
    rw [h0] at h
    exact absurd h (by decide)
  constructor
  · rintro rfl; simp at hlt
  · rintro rfl; simp at hlt

/-- Under the precondition every entry of the second argument (the weights) is a real number. -/
theorem weights_finite (a0 : FVec Ideal S8192x1024 .f32) (a1 : FVec Ideal S4096x1024 .f32)
    (h : fn (F := Ideal) a0 a1 = fun _ => 1#1) (j : S4096x1024.Idx) : a1 j ≠ ⊤ ∧ a1 j ≠ ⊥ := by
  have h0 := congrFun h ValueIdx.ix0
  dsimp only [fn] at h0
  obtain ⟨-, hw⟩ := IntOp.andi_eq_one.1 h0
  have e := Host.reduce_andi_all _ _ _ _ _ hw j
  have eb : broadcastInDim S4096x1024 ![] Facts.bcast_S_S4096x1024 (constant (F := Ideal) S_ .f32 0x7F800000#32) j = ⊤ :=
    (broadcastInDim_apply _ _ _ j ValueIdx.ix0 (fun a => a.elim0)).trans top_word
  apply real_of_abs_lt_top
  have e' : Ideal.cmp .olt (max (a1 j) (-(a1 j)))
      (broadcastInDim S4096x1024 ![] Facts.bcast_S_S4096x1024 (constant (F := Ideal) S_ .f32 0x7F800000#32) j) = 1#1 := e
  rw [eb] at e'
  exact e'

end Cert.Pre_finite_inputs.Finite

end
-- ==== Proof.lean ====
/-
  The kernel and its reference compute one function of (x, w) over the extended reals.

  Both programs form, for every row r of x (8192 rows of 1024 inputs) and every row c of w (4096 rows of 1024
  weights), the two currents  Σₖ drive x(r,k) · wpos w(c,k)  and  Σₖ drive x(r,k) · wneg w(c,k)  — drive x =
  2.5 · max(0, x − 0.2)², wpos and wneg the positive parts of the weight rounded to the nearest integer and clamped to
  [−8, 7] and of its negation — and return the difference of the two currents' gated values, the gate being
  s ↦ min(1.2, max(0, 1.2 · (1 − exp(−0.05 · s))))  (Proof/Spec.lean).

  The kernel does this on an 8 × 8 grid: point (b, o) multiplies a 1024-row block of x with a 512-row block of w,
  contracting the column axis of both, and writes the 1024 × 512 block (b, o) of the result. Its operands are cast to
  a shorter float format first, which is the identity on the extended reals. Entry (p, q) of a block depends only on
  row p of the x block and row q of the w block (Proof/BlockEntry.lean); the 64 blocks are restrictions of the one
  function and tile the result array (Proof/KernelArray.lean).

  The reference does it with two products over the whole arrays, and it adds w − w to the quantized weights. That
  difference is zero exactly when w is finite — at an infinite weight it is −∞ — so this is where the precondition is
  used: every weight is a real number (Proof/FiniteWeights.lean), and then the reference's entry (r, c) is the same
  expression (Proof/RefEntry.lean). The reference negates the quantized weight where the kernel subtracts it from
  zero: the same value. Sums of products are compared term by term in the same order; no distributivity, no
  cancellation other than w − w, and no evaluation of a decimal literal is needed: each literal is the same f32 word
  on both sides.

  The idealization rewrote no operation of the kernel, so the statement that it preserves the kernel is the
  trivial one. The three frames are the generated frame certificates of the two kernel programs and, for the
  reference, its generated run with the result forgotten.
-/
import proofs.«116920_j7730941133085_1_alg».proof.Defs
import proofs.«116920_j7730941133085_1_alg».proof.Proof.Gen.Kernel
import proofs.«116920_j7730941133085_1_alg».proof.Proof.Gen.Kernel.Skeleton
import proofs.«116920_j7730941133085_1_alg».proof.Proof.Gen.Kernel.Launch
import proofs.«116920_j7730941133085_1_alg».proof.Proof.Gen.Kernel.Points
import proofs.«116920_j7730941133085_1_alg».proof.Proof.Gen.Kernel.Frame
import proofs.«116920_j7730941133085_1_alg».proof.Proof.Gen.KernelIdeal
import proofs.«116920_j7730941133085_1_alg».proof.Proof.Gen.KernelIdeal.Skeleton
import proofs.«116920_j7730941133085_1_alg».proof.Proof.Gen.KernelIdeal.Launch
import proofs.«116920_j7730941133085_1_alg».proof.Proof.Gen.KernelIdeal.Points
import proofs.«116920_j7730941133085_1_alg».proof.Proof.Gen.KernelIdeal.Frame
import proofs.«116920_j7730941133085_1_alg».proof.Proof.Gen.ReferenceIdeal
import proofs.«116920_j7730941133085_1_alg».proof.Proof.Gen.Pre_finite_inputs
import proofs.«116920_j7730941133085_1_alg».proof.Proof.Gen.KernelIdeal.Value
import proofs.«116920_j7730941133085_1_alg».proof.Proof.Gen.ReferenceIdeal.Run
import proofs.«116920_j7730941133085_1_alg».proof.Proof.Gen.ReferenceIdeal.Read
import proofs.«116920_j7730941133085_1_alg».proof.Proof.KernelArray
import proofs.«116920_j7730941133085_1_alg».proof.Proof.RefEntry
import proofs.«116920_j7730941133085_1_alg».proof.Proof.FiniteWeights
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was idealized: nothing to preserve. -/
theorem preserves : Cert.preserves_Kernel_KernelIdeal := trivial

/-- From memories that agree on x and w, with every input finite, both programs end with the result array at
    the specification of (x, w): the kernel by its 64 blocks, the reference entry by entry, the weights being real. -/
theorem algebraic : Cert.algebraic_KernelIdeal_ReferenceIdeal := by
  intro m ρ m' ρ' hpre hagree
  refine ⟨fun c => Cert.Spec.result (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v31_eq]
  refine (Cert.ReferenceIdeal.Entry.ref_eq_result _ _ (fun j => ?_)).trans ?_
  · -- the reference's weights are the kernel's, and those are real by the precondition
    rw [(hagree c).2]
    exact Cert.Pre_finite_inputs.Finite.weights_finite _ _ (hpre c) j
  · rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
